-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S2048x256 : Shape := ⟨2, ![2048, 256]⟩
abbrev S2048x1024 : Shape := ⟨2, ![2048, 1024]⟩
abbrev S2048x1 : Shape := ⟨2, ![2048, 1]⟩
abbrev S8192x1 : Shape := ⟨2, ![8192, 1]⟩
abbrev S2048 : Shape := ⟨1, ![2048]⟩
abbrev S8192 : Shape := ⟨1, ![8192]⟩
abbrev S1024x256 : Shape := ⟨2, ![1024, 256]⟩
abbrev S1024x1 : Shape := ⟨2, ![1024, 1]⟩
abbrev S1x1024 : Shape := ⟨2, ![1, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S2048x256, .f32⟩
  | .local _ .vmem, ⟨1, _⟩ => ⟨S2048x256, .f32⟩
  | .local _ .vmem, ⟨2, _⟩ => ⟨S8192x256, .f32⟩
  | .local _ .vmem, ⟨3, _⟩ => ⟨S2048x1024, .f32⟩
  | .local _ .vmem, ⟨4, _⟩ => ⟨S2048x1024, .f32⟩
  | .local _ .vmem, ⟨5, _⟩ => ⟨S2048x1, .f32⟩
  | .local _ .vmem, ⟨6, _⟩ => ⟨S8192x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_off2 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  let c0_1 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S8192x256_S8192x256_0_0 : ∀ a, (![0, 0] : Fin 2 → Nat) a + S8192x256.size a ≤ S8192x256.size a
  h_S8192x256 : 0 < S8192x256.numel
  reduces_S8192x256_S8192 : S8192x256.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  h_S1024x256 : 0 < S1024x256.numel
  h_S1024x1 : 0 < S1024x1.numel
  bitsLt_bf16_f32 : FTy.bits .bf16 < FTy.bits .f32
  transposes_S1024x1_p1_0_S1x1024 : S1024x1.Transposes [1, 0] S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x256_S1024x256_S2048x1024_1_1_0_0_n_n_wf : DotDims.WF S2048x256 S1024x256 S2048x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  k0_off2_inb : ∀ i : grid0.Coords, ∀ a, (k0_off2 i) a + S1024x1.size a ≤ S8192x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x8192.size a
  hwx0_2 : ∀ i : grid0.Coords, EltTy.bits .f32 = 32 ∨ (Rect.block (s := S8192x8192) S2048x1024.size (cc0_transform_2 i) (hinb0_2 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Spec.lean ====
/-
  The specification: the pairwise Gaussian-kernel matrix of two families of 8192 row vectors in dimension 256.

  For rows `a_p` and `b_q` the entry is `exp (c · max (‖a_p‖² + ‖b_q‖² − 2·⟨a_p, b_q⟩, 0))` with `c = −1/256`, over the
  extended reals: `‖x_r‖² = ∑ₖ x(r,k)·x(r,k)`, `⟨a_p, b_q⟩ = ∑ₖ a(p,k)·b(q,k)`, the sums over the 256 coordinates.
  The three float literals stay the words the programs print (`2.0`, `-2⁻⁸`); only the zero word is read as `0`.
  Nothing here depends on a program: both programs are shown to compute `gram`.
-/
import Idealize.ShloMosaic.PureOps.Ideal
import Idealize.ShloMosaic.PureOps.Ideal.Laws
import Idealize.ShloMosaic.Lib.ValueIdx

noncomputable section

open scoped BigOperators

namespace Cert.Gram

open Idealize.ShloMosaic Idealize.ShloMosaic.ValueIdx

/-- A family of 8192 row vectors of dimension 256 over the extended reals. -/
abbrev Rows : Type := (⟨2, ![8192, 256]⟩ : Shape).Idx → EReal

/-- The squared length of row `r`: the sum of the squares of its 256 coordinates. -/
def sqLen (x : Rows) (r : Fin 8192) : EReal := ∑ k : Fin 256, x (ix2 r k) * x (ix2 r k)

/-- The inner product of row `p` of `a` with row `q` of `b`. -/
def inner (a b : Rows) (p q : Fin 8192) : EReal := ∑ k : Fin 256, a (ix2 p k) * b (ix2 q k)

/-- The squared distance written out as `‖a_p‖² + ‖b_q‖² − 2·⟨a_p, b_q⟩`, clamped below at zero. -/
def sqDist (a b : Rows) (p q : Fin 8192) : EReal :=
  max ((sqLen a p + sqLen b q) - Ideal.ofBits .f32 0x40000000#32 * inner a b p q) 0

/-- Entry `(p, q)` of the matrix: `exp (−2⁻⁸ · sqDist)`. -/
def entry (a b : Rows) (p q : Fin 8192) : EReal :=
  Ideal.exp (Ideal.ofBits .f32 0xBB800000#32 * sqDist a b p q)

/-- The whole 8192 × 8192 matrix, index by index. -/
def gram (a b : Rows) : (⟨2, ![8192, 8192]⟩ : Shape).Idx → EReal := fun i => entry a b (i 0) (i 1)

theorem gram_apply (a b : Rows) (p q : Fin 8192) : gram a b (ix2 p q) = entry a b p q := rfl

end Cert.Gram

end
-- ==== Proof.RefSpec.lean ====
/-
  The reference program computes the specification: read one operation at a time at an index `i = (p, q)`, its result is
  `exp (c · max ((0 + ∑ₖ a(p,k)²) + (0 + ∑ₖ b(q,k)²) − 2·∑ₖ a(p,k)·b(q,k), 0))`; the two broadcasts carry a row sum to
  every column and a column's row sum to every row, and the leading zeros of the two host sums vanish.
-/
import proofs.«161270_j65481071410173_2_alg».proof.Proof.Gen.ReferenceIdeal.Read
import proofs.«161270_j65481071410173_2_alg».proof.Proof.Spec

noncomputable section

open scoped BigOperators

namespace Cert.ReferenceIdeal.RefValue

open Cert.ReferenceIdeal Cert.ReferenceIdeal.Read Idealize.ShloMosaic Idealize.ShloMosaic.ValueIdx Cert.Gram

/-- The row of `a` that entry `i` of the result sums over, through the two broadcasts. -/
theorem rowA (i : S8192x8192.Idx) (k : Fin 256) : idx_main_v1 (idx_main_v5 (idx_main_v7 i)) k = ix2 (i 0) k :=
  funext fun a => Fin.ext (by match a with | ⟨0, _⟩ => rfl | ⟨1, _⟩ => rfl)

/-- The row of `b` that entry `i` of the result sums over, through the two broadcasts. -/
theorem rowB (i : S8192x8192.Idx) (k : Fin 256) : idx_main_v3 (idx_main_v6 (idx_main_v8 i)) k = ix2 (i 1) k :=
  funext fun a => Fin.ext (by match a with | ⟨0, _⟩ => rfl | ⟨1, _⟩ => rfl)

theorem dotL (i : S8192x8192.Idx) (k : Fin 256) : lidx_main_v4 i k = ix2 (i 0) k :=
  funext fun a => Fin.ext (by match a with | ⟨0, _⟩ => rfl | ⟨1, _⟩ => rfl)

theorem dotR (i : S8192x8192.Idx) (k : Fin 256) : ridx_main_v4 i k = ix2 (i 1) k :=
  funext fun a => Fin.ext (by match a with | ⟨0, _⟩ => rfl | ⟨1, _⟩ => rfl)

/-- The reference's result array is the specification's matrix of its two argument arrays. -/
theorem ref_eq (x0 x1 : (⟨S8192x256, .f32⟩ : BufTy).Contents (Elt Ideal)) :
    val_main_v17 (F := Ideal) x0 x1 = gram x0 x1 := by
  funext i
  rw [val_main_v17_apply, val_main_v16_apply, val_main_v15_apply, val_main_cst_3_apply, val_main_v14_apply,
    val_main_v13_apply, val_main_cst_2_apply, val_main_v12_apply, val_main_v9_apply, val_main_v7_apply,
    val_main_v5_apply, val_main_v1_apply, val_main_v8_apply, val_main_v6_apply, val_main_v3_apply,
    val_main_v11_apply, val_main_v10_apply, val_main_cst_1_apply, val_main_v4_apply]
  simp only [val_main_v0_apply, val_main_v2_apply, val_main_cst_apply, val_main_cst_0_apply, rowA, rowB, dotL, dotR,
    Ideal.ofBits_def, Ideal.mulf_def, Ideal.addf_def, Ideal.subf_def, Ideal.maximumf_def, Ideal.hostUnary_exp_def,
    Ideal.ofBits_zero_f32, zero_add]
  rfl

end Cert.ReferenceIdeal.RefValue

end
-- ==== Proof.Pieces.lean ====
/-
  What one run of the body leaves behind, as values of what it loaded.

  At a grid point `(i, j)` the body holds a block of 2048 rows of `a` (`x0`), all of `b` (`x1`), and two carried
  columns: the squared lengths of the block's rows (2048 × 1) and of all rows of `b` (8192 × 1). When `j = 0` it first
  recomputes both columns from `x0` and `x1`; at every point it then takes rows `1024·j … 1024·j + 1023` of `b` and of the
  second column, and stores ONE 2048 × 1024 block computed from them, `x0` and the first column. Each buffer is written by
  a single store that covers it, so what it holds afterwards is that store's value.
-/
import proofs.«161270_j65481071410173_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- Rows `1024·j … 1024·j + 1023` of `b`, as the body loads them at a point whose second coordinate is `j`. -/
abbrev bRows (i : grid0.Coords) (x1 : Vec F S8192x256 .f32) : Vec F S1024x256 .f32 :=
  View.ld x1 (Rect.unit (s := S8192x256) (k0_off1 i) S1024x256.size (k0_off1_inb i))

/-- The same rows of a column of 8192 numbers. -/
abbrev colRows (i : grid0.Coords) (xs1 : Vec F S8192x1 .f32) : Vec F S1024x1 .f32 :=
  View.ld xs1 (Rect.unit (s := S8192x1) (k0_off2 i) S1024x1.size (k0_off2_inb i))

/-- When the columns are recomputed, the first holds the row-sum payload of the block of `a`. -/
theorem colA_fresh (c : Dev nD) (i : grid0.Coords) (arg2 : Memref sig .tc .vmem S2048x256 .f32) (harg2 : arg2.IsWhole) (arg3 : Memref sig .tc .vmem S8192x256 .f32) (harg3 : arg3.IsWhole) (arg4 : Memref sig .tc .vmem S2048x1024 .f32) (harg4 : arg4.IsWhole) (arg5 : Memref sig .tc .vmem S2048x1 .f32) (harg5 : arg5.IsWhole) (arg6 : Memref sig .tc .vmem S8192x1 .f32) (harg6 : arg6.IsWhole) (hc0 : cond0_0 i)
    (x0 : Vec F S2048x256 .f32) (x1 : Vec F S8192x256 .f32) :
    sout0_A_0 c i arg2 harg2 arg3 harg3 arg4 harg4 arg5 harg5 arg6 harg6 hc0 x0 x1 = k0_pay1 x0 := by
  unfold sout0_A_0
  rw [View.read_writes_eq_canon _ _ _ (scover0_A_0 c i arg2 harg2 arg3 harg3 arg4 harg4 arg5 harg5 arg6 harg6 hc0 x0 x1)]
  unfold kernelRun0_A
  dsimp only
  sl_unfold_run_names
  rw [View.canon_unit_zero hz]
  simp only [View.readAt_eq_ld, harg2.read_unread, View.ld_unit_zero (S := S2048x256) hz]

/-- … and the second the row-sum payload of all of `b`. -/
theorem colB_fresh (c : Dev nD) (i : grid0.Coords) (arg2 : Memref sig .tc .vmem S2048x256 .f32) (harg2 : arg2.IsWhole) (arg3 : Memref sig .tc .vmem S8192x256 .f32) (harg3 : arg3.IsWhole) (arg4 : Memref sig .tc .vmem S2048x1024 .f32) (harg4 : arg4.IsWhole) (arg5 : Memref sig .tc .vmem S2048x1 .f32) (harg5 : arg5.IsWhole) (arg6 : Memref sig .tc .vmem S8192x1 .f32) (harg6 : arg6.IsWhole) (hc0 : cond0_0 i)
    (x0 : Vec F S2048x256 .f32) (x1 : Vec F S8192x256 .f32) :
    sout0_A_1 c i arg2 harg2 arg3 harg3 arg4 harg4 arg5 harg5 arg6 harg6 hc0 x0 x1 = k0_pay2 x1 := by
  unfold sout0_A_1
  rw [View.read_writes_eq_canon _ _ _ (scover0_A_1 c i arg2 harg2 arg3 harg3 arg4 harg4 arg5 harg5 arg6 harg6 hc0 x0 x1)]
  unfold kernelRun0_A
  dsimp only
  sl_unfold_run_names
  rw [View.canon_unit_zero hz]
  simp only [View.readAt_eq_ld, harg3.read_unread, View.ld_unit_zero (S := S8192x256) hz]

/-- At a point that keeps the columns (`xs0`, `xs1`: what the point before left), the output block is the body's
    payload of the rows of `b`, the same rows of the second column, the block of `a` and the first column. -/
theorem out_kept (c : Dev nD) (i : grid0.Coords) (arg2 : Memref sig .tc .vmem S2048x256 .f32) (harg2 : arg2.IsWhole) (arg3 : Memref sig .tc .vmem S8192x256 .f32) (harg3 : arg3.IsWhole) (arg4 : Memref sig .tc .vmem S2048x1024 .f32) (harg4 : arg4.IsWhole) (arg5 : Memref sig .tc .vmem S2048x1 .f32) (harg5 : arg5.IsWhole) (arg6 : Memref sig .tc .vmem S8192x1 .f32) (harg6 : arg6.IsWhole) (hc0 : ¬cond0_0 i)
    (x0 : Vec F S2048x256 .f32) (x1 : Vec F S8192x256 .f32) (xs0 : Vec F S2048x1 .f32) (xs1 : Vec F S8192x1 .f32) :
    out0_B_2 c i arg2 harg2 arg3 harg3 arg4 harg4 arg5 harg5 arg6 harg6 hc0 x0 x1 xs0 xs1 = k0_pay3 (bRows i x1) (colRows i xs1) x0 xs0 := by
  unfold out0_B_2
  rw [View.read_writes_eq_canon _ _ _ (cover0_B_2 c i arg2 harg2 arg3 harg3 arg4 harg4 arg5 harg5 arg6 harg6 hc0 x0 x1 xs0 xs1)]
  unfold kernelRun0_B
  dsimp only
  rw [View.canon_unit_zero hz]
  simp only [View.readAt_eq_ld, harg2.read_unread, harg3.read_unread, harg5.read_unread, harg6.read_unread,
    View.ld_unit_zero (S := S2048x256) hz, View.ld_unit_zero (S := S2048x1) hz]

/-- At a point that recomputes the columns, the same payload over the columns just recomputed. -/
theorem out_fresh (c : Dev nD) (i : grid0.Coords) (arg2 : Memref sig .tc .vmem S2048x256 .f32) (harg2 : arg2.IsWhole) (arg3 : Memref sig .tc .vmem S8192x256 .f32) (harg3 : arg3.IsWhole) (arg4 : Memref sig .tc .vmem S2048x1024 .f32) (harg4 : arg4.IsWhole) (arg5 : Memref sig .tc .vmem S2048x1 .f32) (harg5 : arg5.IsWhole) (arg6 : Memref sig .tc .vmem S8192x1 .f32) (harg6 : arg6.IsWhole) (hc0 : cond0_0 i)
    (x0 : Vec F S2048x256 .f32) (x1 : Vec F S8192x256 .f32) :
    out0_A_2 c i arg2 harg2 arg3 harg3 arg4 harg4 arg5 harg5 arg6 harg6 hc0 x0 x1 = k0_pay3 (bRows i x1) (colRows i (k0_pay2 x1)) x0 (k0_pay1 x0) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_run_names
  rw [View.canon_unit_zero hz]
  rw [View.readAt_writes_junk_eq_canon, View.readCov_unit_zero _ hz, View.canon_unit_zero hz]
  simp only [View.readAt_eq_ld, harg2.read_unread, harg3.read_unread,
    View.ld_unit_zero (S := S2048x256) hz, View.ld_unit_zero (S := S8192x256) hz]
  rfl

end Cert.KernelIdeal.Pieces

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.Payload.lean ====
/-
  The body's three computed values, read at an index over the extended reals.

  The two column payloads are row sums of squares: entry `(p, 0)` of each is `∑ₖ x(p,k)·x(p,k)` (no rounding; the change
  of format before the matrix product is the identity). The output payload, from 1024 rows `v6` of `b`, the matching
  1024 entries `v8` of the second column, the block `v9` of `a` and the first column `v13`, is at `(p, q)`
  `exp (c · max ((v13(p) + v8(q)) − 2·∑ₖ v9(p,k)·v6(q,k), 0))`: the matrix product into a zero accumulator is the plain
  sum over the one contracted axis, the column is spread along the rows, the transposed column along the columns.
-/
import proofs.«161270_j65481071410173_2_alg».proof.Proof.Gen.KernelIdeal.Skeleton
import proofs.«161270_j65481071410173_2_alg».proof.Proof.LibColumns

noncomputable section

open scoped BigOperators

namespace Cert.KernelIdeal.Payload

open Cert.KernelIdeal Cert.KernelIdeal.Gen Idealize.ShloMosaic Idealize.ShloMosaic.ValueIdx Cert.LibColumns

/-- The first column's payload: row `p` of the block of `a` squared and summed. -/
theorem pay1_apply (x : Vec Ideal S2048x256 .f32) (p : Fin 2048) (z : Fin 1) :
    k0_pay1 (F := Ideal) x (ix2 p z) = ∑ k : Fin 256, x (ix2 p k) * x (ix2 p k) := by
  unfold k0_pay1
  refine (congrFun (shapeCast_self _ _) _).trans ?_
  refine (shapeCast_a_a1_apply _ _ p z).trans ?_
  exact rowSum_apply (mulf x x) _ _ _ _ p

/-- The second column's payload: row `q` of `b` squared and summed. -/
theorem pay2_apply (x : Vec Ideal S8192x256 .f32) (q : Fin 8192) (z : Fin 1) :
    k0_pay2 (F := Ideal) x (ix2 q z) = ∑ k : Fin 256, x (ix2 q k) * x (ix2 q k) := by
  unfold k0_pay2
  refine (congrFun (shapeCast_self _ _) _).trans ?_
  refine (shapeCast_a_a1_apply _ _ q z).trans ?_
  exact rowSum_apply (mulf x x) _ _ _ _ q

theorem lhs_0 (i : S2048x1024.Idx) (q : dot_S2048x256_S1024x256_S2048x1024_1_1_0_0_n_n.contr.Idx) :
    (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl

theorem rhs_0 (i : S2048x1024.Idx) (q : dot_S2048x256_S1024x256_S2048x1024_1_1_0_0_n_n.contr.Idx) :
    (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl

/-- The matrix product of a 2048 × 256 block with the transpose of a 1024 × 256 block, into zeros: at `(p, q)` the
    inner product of row `p` of the first with row `q` of the second. -/
theorem cross_apply {φ₁ φ₂ : FTy} (l : FVec Ideal S2048x256 φ₁) (r : FVec Ideal S1024x256 φ₂) (p : Fin 2048) (q : Fin 1024) :
    FloatOps.matmul dot_S2048x256_S1024x256_S2048x1024_1_1_0_0_n_n none l r (constant S2048x1024 .f32 0x00000000#32) (ix2 p q)
      = ∑ k : Fin 256, l (ix2 p k) * r (ix2 q k) := by
  rw [Ideal.matmul_constant_zero_apply, ← Equiv.sum_comp (ValueIdx.contrEquiv1 dot_S2048x256_S1024x256_S2048x1024_1_1_0_0_n_n 256 rfl rfl).symm]
  refine Finset.sum_congr rfl fun k _ => ?_
  have hk := ValueIdx.contrEquiv1_symm_val dot_S2048x256_S1024x256_S2048x1024_1_1_0_0_n_n 256 rfl rfl k
  have el : dot_S2048x256_S1024x256_S2048x1024_1_1_0_0_n_n.lhsIdx (ix2 p q) ((ValueIdx.contrEquiv1 dot_S2048x256_S1024x256_S2048x1024_1_1_0_0_n_n 256 rfl rfl).symm k) = ix2 p k := funext fun a => Fin.ext (by
    match a with
    | ⟨0, _⟩ => exact lhs_0 _ _
    | ⟨1, _⟩ => exact (dot_S2048x256_S1024x256_S2048x1024_1_1_0_0_n_n.lhsIdx_val_of_single rfl _ _).trans hk)
  have er : dot_S2048x256_S1024x256_S2048x1024_1_1_0_0_n_n.rhsIdx (ix2 p q) ((ValueIdx.contrEquiv1 dot_S2048x256_S1024x256_S2048x1024_1_1_0_0_n_n 256 rfl rfl).symm k) = ix2 q k := funext fun a => Fin.ext (by
    match a with
    | ⟨0, _⟩ => exact rhs_0 _ _
    | ⟨1, _⟩ => exact (dot_S2048x256_S1024x256_S2048x1024_1_1_0_0_n_n.rhsIdx_val_of_single rfl _ _).trans hk)
  rw [el, er]

/-- The output payload at `(p, q)`. -/
theorem pay3_apply (v6 : Vec Ideal S1024x256 .f32) (v8 : Vec Ideal S1024x1 .f32) (v9 : Vec Ideal S2048x256 .f32)
    (v13 : Vec Ideal S2048x1 .f32) (p : Fin 2048) (q : Fin 1024) :
    k0_pay3 (F := Ideal) v6 v8 v9 v13 (ix2 p q)
      = Ideal.exp (Ideal.ofBits .f32 0xBB800000#32
          * max ((v13 (ix2 p (0 : Fin 1)) + v8 (ix2 q (0 : Fin 1)))
              - Ideal.ofBits .f32 0x40000000#32 * ∑ k : Fin 256, v9 (ix2 p k) * v6 (ix2 q k)) 0) := by
  unfold k0_pay3
  show Ideal.exp (Ideal.ofBits .f32 0xBB800000#32
      * max ((broadcastTo S2048x1024 v13 broadcasts_S2048x1_S2048x1024 (ix2 p q)
            + broadcastTo S2048x1024 (transpose S1x1024 [1, 0] v8 transposes_S1024x1_p1_0_S1x1024) broadcasts_S1x1024_S2048x1024 (ix2 p q))
          - Ideal.ofBits .f32 0x40000000#32
            * FloatOps.matmul (F := Ideal) dot_S2048x256_S1024x256_S2048x1024_1_1_0_0_n_n none (truncf (F := Ideal) .bf16 v9 bitsLt_bf16_f32)
                (truncf (F := Ideal) .bf16 v6 bitsLt_bf16_f32) (constant (F := Ideal) S2048x1024 .f32 0x00000000#32) (ix2 p q))
        (Ideal.ofBits .f32 0x00000000#32)) = _
  rw [broadcastTo_a1_ab_apply, broadcastTo_1b_ab_apply, transpose_ix2_apply, cross_apply, Ideal.ofBits_zero_f32]
  rfl

end Cert.KernelIdeal.Payload

end
-- ==== Proof.Block.lean ====
/-
  From one block to the whole arrays: what the body's values are when its loads are rows of `a` and `b`.

  At grid point `(i, j)` the block of `a` is rows `2048·i + p` and the body takes rows `1024·j + q` of `b`. If the loaded
  values are those rows, and the two columns hold the squared lengths of those rows, then the two column payloads are
  squared lengths again and the output payload at `(p, q)` is the specification's entry `(2048·i + p, 1024·j + q)`.
  Everything here is stated over variables of literal shapes; the grid enters through the hypotheses only.
-/
import proofs.«161270_j65481071410173_2_alg».proof.Proof.Pieces
import proofs.«161270_j65481071410173_2_alg».proof.Proof.Payload
import proofs.«161270_j65481071410173_2_alg».proof.Proof.Spec

noncomputable section

open scoped BigOperators

namespace Cert.KernelIdeal.Block

open Cert.KernelIdeal Cert.KernelIdeal.Gen Idealize.ShloMosaic Idealize.ShloMosaic.ValueIdx Cert.Gram
open Cert.KernelIdeal.Pieces Cert.KernelIdeal.Payload

/-- Row `2048·i + p` of the 8192: row `p` of the `i`-th block of 2048 rows. -/
abbrev rowA (i : ℕ) (hi : i < 4) (p : Fin 2048) : Fin 8192 := ⟨2048 * i + p.val, by have := p.isLt; omega⟩

/-- Row `1024·j + q` of the 8192: row `q` of the `j`-th block of 1024 rows. -/
abbrev rowB (j : ℕ) (hj : j < 8) (q : Fin 1024) : Fin 8192 := ⟨1024 * j + q.val, by have := q.isLt; omega⟩

/-- The 1024 rows of `b` the body loads at offset `1024·j`, read at `(q, k)`. -/
theorem bRows_apply (i : grid0.Coords) (j : ℕ) (hj : j < 8) (hoff : k0_off1 i = ![1024 * j, 0])
    (x1 : Vec Ideal S8192x256 .f32) (q : Fin 1024) (k : Fin 256) :
    bRows (F := Ideal) i x1 (ix2 q k) = x1 (ix2 (rowB j hj q) k) := by
  show x1 ((Rect.unit (s := S8192x256) (k0_off1 i) S1024x256.size (k0_off1_inb i)).idx (ix2 q k)) = _
  refine congrArg x1 (funext fun a => Fin.ext ?_)
  match a with
  | ⟨0, _⟩ =>
    show k0_off1 i 0 + 1 * q.val = 1024 * j + q.val
    rw [hoff]
    show 1024 * j + 1 * q.val = 1024 * j + q.val
    omega
  | ⟨1, _⟩ =>
    show k0_off1 i 1 + 1 * k.val = k.val
    rw [hoff]
    show 0 + 1 * k.val = k.val
    omega

/-- The same 1024 rows of a column of 8192 numbers, read at `(q, 0)`. -/
theorem colRows_apply (i : grid0.Coords) (j : ℕ) (hj : j < 8) (hoff : k0_off2 i = ![1024 * j, 0])
    (xs1 : Vec Ideal S8192x1 .f32) (q : Fin 1024) (z : Fin 1) :
    colRows (F := Ideal) i xs1 (ix2 q z) = xs1 (ix2 (rowB j hj q) z) := by
  show xs1 ((Rect.unit (s := S8192x1) (k0_off2 i) S1024x1.size (k0_off2_inb i)).idx (ix2 q z)) = _
  refine congrArg xs1 (funext fun a => Fin.ext ?_)
  match a with
  | ⟨0, _⟩ =>
    show k0_off2 i 0 + 1 * q.val = 1024 * j + q.val
    rw [hoff]
    show 1024 * j + 1 * q.val = 1024 * j + q.val
    omega
  | ⟨1, _⟩ =>
    show k0_off2 i 1 + 1 * z.val = z.val
    rw [hoff]
    show 0 + 1 * z.val = z.val
    omega

/-- The first column recomputed from the `i`-th block of `a` holds the squared lengths of that block's rows. -/
theorem colA_block (a : Rows) (i : ℕ) (hi : i < 4) (x0 : Vec Ideal S2048x256 .f32)
    (h0 : ∀ (p : Fin 2048) (k : Fin 256), x0 (ix2 p k) = a (ix2 (rowA i hi p) k)) (p : Fin 2048) (z : Fin 1) :
    k0_pay1 (F := Ideal) x0 (ix2 p z) = sqLen a (rowA i hi p) := by
  rw [pay1_apply]
  simp only [h0]
  rfl

/-- The second column recomputed from all of `b` holds the squared lengths of all its rows. -/
theorem colB_all (b : Rows) (x1 : Vec Ideal S8192x256 .f32)
    (h1 : ∀ (q : Fin 8192) (k : Fin 256), x1 (ix2 q k) = b (ix2 q k)) (q : Fin 8192) (z : Fin 1) :
    k0_pay2 (F := Ideal) x1 (ix2 q z) = sqLen b q := by
  rw [pay2_apply]
  simp only [h1]
  rfl

/-- The output block at `(i, j)`: when the four loaded values are rows `1024·j + q` of `b`, their squared lengths, rows
    `2048·i + p` of `a` and their squared lengths, the payload at `(p, q)` is the specification's entry. -/
theorem entry_block (a b : Rows) (i j : ℕ) (hi : i < 4) (hj : j < 8)
    (v6 : Vec Ideal S1024x256 .f32) (v8 : Vec Ideal S1024x1 .f32) (v9 : Vec Ideal S2048x256 .f32) (v13 : Vec Ideal S2048x1 .f32)
    (h6 : ∀ (q : Fin 1024) (k : Fin 256), v6 (ix2 q k) = b (ix2 (rowB j hj q) k))
    (h8 : ∀ q : Fin 1024, v8 (ix2 q (0 : Fin 1)) = sqLen b (rowB j hj q))
    (h9 : ∀ (p : Fin 2048) (k : Fin 256), v9 (ix2 p k) = a (ix2 (rowA i hi p) k))
    (h13 : ∀ p : Fin 2048, v13 (ix2 p (0 : Fin 1)) = sqLen a (rowA i hi p))
    (p : Fin 2048) (q : Fin 1024) :
    k0_pay3 (F := Ideal) v6 v8 v9 v13 (ix2 p q) = entry a b (rowA i hi p) (rowB j hj q) := by
  rw [pay3_apply, h8, h13]
  simp only [h6, h9]
  rfl

end Cert.KernelIdeal.Block

end
-- ==== Proof.Points.lean ====
/-
  Point by point over the 4 × 8 grid: what the two carried columns and the output block hold after each point.

  Point `t` has coordinates `(t / 8, t % 8)`. The block of `a` it sees is rows `2048·(t/8) + p`; `b` is seen whole. The
  columns are recomputed exactly at the points with `t % 8 = 0` and kept otherwise, and between two recomputations
  `t / 8` does not change: so after EVERY point the first column holds the squared lengths of the current block's rows and
  the second those of all rows of `b` (induction on the point). With that, the output block after point `t` is, at
  `(p, q)`, the specification's entry `(2048·(t/8) + p, 1024·(t%8) + q)`.
-/
import proofs.«161270_j65481071410173_2_alg».proof.Proof.Gen.KernelIdeal.Frame
import proofs.«161270_j65481071410173_2_alg».proof.Proof.Block

set_option maxRecDepth 16384

noncomputable section

open scoped BigOperators

namespace Cert.KernelIdeal.Points

open Cert.KernelIdeal Cert.KernelIdeal.Gen Idealize.ShloMosaic Idealize.ShloMosaic.TcCoe Idealize.SL.Sem
open Idealize.ShloMosaic.ValueIdx Cert.Gram
open Cert.KernelIdeal.Pieces Cert.KernelIdeal.Payload Cert.KernelIdeal.Block

variable (m : (ℓ : Loc nD τ sig) → Buf (Elt Ideal) ℓ)

/-- The two argument arrays as the region finds them. -/
abbrev arrA (c : Dev nD) : Rows := V m c main_arg0
abbrev arrB (c : Dev nD) : Rows := V m c main_arg1

/-- The printed index maps and load offsets at point `t`, decided over the 32 points: the blocks of `a` and of the
    output move with `t / 8`, the output's column block and the loaded rows of `b` with `t % 8`, `b` does not move. -/
theorem grid_facts : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = t.val % 8
    ∧ k0_off1 (grid0.coords t) = ![1024 * (t.val % 8), 0] ∧ k0_off2 (grid0.coords t) = ![1024 * (t.val % 8), 0] :=
  (by decide +kernel : ∀ t : Fin grid0.N, _)

theorem blockRow_lt (n : ℕ) (h : n < cfg0.N) : n / 8 < 4 := by
  have hN : cfg0.N = 32 := N_0
  omega

theorem blockCol_lt (n : ℕ) : n % 8 < 8 := Nat.mod_lt _ (by decide)

/-- The block of `a` at point `t`, read at `(p, k)`: row `2048·(t/8) + p` of `a`. -/
theorem blkA (c : Dev nD) (t : Fin cfg0.N) (p : Fin 2048) (k : Fin 256) :
    (iblk m c 0 t : Vec Ideal S2048x256 .f32) (ix2 p k) = arrA m c (ix2 (rowA (t.val / 8) (blockRow_lt t.val t.isLt) p) k) := by
  show V m c main_arg0 (((cfg0.win 0).blk t).view.emb (ix2 p k)) = _
  refine congrArg (V m c main_arg0) (funext fun a => Fin.ext ?_)
  obtain ⟨e0, e1, -⟩ := grid_facts t
  match a with
  | ⟨0, _⟩ =>
    show win0_0.index t (0 : Fin 2) * 2048 + 1 * p.val = 2048 * (t.val / 8) + p.val
    rw [e0]; omega
  | ⟨1, _⟩ =>
    show win0_0.index t (1 : Fin 2) * 256 + 1 * k.val = k.val
    rw [e1]; omega

/-- The block of `b` at every point is all of `b`. -/
theorem blkB (c : Dev nD) (t : Fin cfg0.N) (q : Fin 8192) (k : Fin 256) :
    (iblk m c 1 t : Vec Ideal S8192x256 .f32) (ix2 q k) = arrB m c (ix2 q k) := by
  show V m c main_arg1 (((cfg0.win 1).blk t).view.emb (ix2 q k)) = _
  refine congrArg (V m c main_arg1) (funext fun a => Fin.ext ?_)
  obtain ⟨-, -, e2, e3, -⟩ := grid_facts t
  match a with
  | ⟨0, _⟩ =>
    show win0_1.index t (0 : Fin 2) * 8192 + 1 * q.val = q.val
    rw [e2]; omega
  | ⟨1, _⟩ =>
    show win0_1.index t (1 : Fin 2) * 256 + 1 * k.val = k.val
    rw [e3]; omega

/-- The two carried columns after point `n`: the squared lengths of the rows of the current block of `a`, and of all rows
    of `b`. -/
def ColsAt (c : Dev nD) (n : ℕ) (h : n < cfg0.N) : Prop :=
  (∀ p : Fin 2048, (outsAt0 m c n h).2.1 (ix2 p (0 : Fin 1)) = sqLen (arrA m c) (rowA (n / 8) (blockRow_lt n h) p))
  ∧ (∀ q : Fin 8192, (outsAt0 m c n h).2.2 (ix2 q (0 : Fin 1)) = sqLen (arrB m c) q)

/-- At a point that recomputes the columns they hold the squared lengths. -/
theorem cols_fresh (c : Dev nD) (t : Fin cfg0.N) (h0 : t.val % 8 = 0) : ColsAt m c t.val t.isLt := by
  unfold ColsAt
  rw [outsAt0_A m c t h0]
  dsimp only
  rw [colA_fresh c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t),
    colB_fresh c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)]
  exact ⟨fun p => colA_block (arrA m c) (t.val / 8) (blockRow_lt t.val t.isLt) (iblk m c 0 t) (fun p k => blkA m c t p k) p 0,
    fun q => colB_all (arrB m c) (iblk m c 1 t) (fun q k => blkB m c t q k) q 0⟩

/-- At a point that keeps the columns they are what the point before left; the block of `a` has not changed. -/
theorem cols_kept (c : Dev nD) (t : Fin cfg0.N) (h0 : ¬t.val % 8 = 0)
    (ih : ColsAt m c (t.val - 1) (Nat.lt_of_le_of_lt (Nat.sub_le _ _) t.isLt)) : ColsAt m c t.val t.isLt := by
  unfold ColsAt
  rw [outsAt0_B m c t h0]
  dsimp only
  unfold sout0_B_0 sout0_B_1
  refine ⟨fun p => (ih.1 p).trans (congrArg (sqLen (arrA m c)) (Fin.ext ?_)), ih.2⟩
  show 2048 * ((t.val - 1) / 8) + p.val = 2048 * (t.val / 8) + p.val
  omega

/-- After every point the columns hold the squared lengths: induction on the point. -/
theorem cols_ok (c : Dev nD) : ∀ (n : ℕ) (h : n < cfg0.N), ColsAt m c n h
  | 0, h => cols_fresh m c ⟨0, h⟩ rfl
  | n + 1, h => by
    by_cases h0 : (n + 1) % 8 = 0
    · exact cols_fresh m c ⟨n + 1, h⟩ h0
    · exact cols_kept m c ⟨n + 1, h⟩ h0 (cols_ok c n (Nat.lt_of_succ_lt h))

/-- The output block after point `t`, at `(p, q)`: the specification's entry at row `2048·(t/8) + p`, column
    `1024·(t%8) + q`. -/
theorem out_ok (c : Dev nD) (t : Fin cfg0.N) (p : Fin 2048) (q : Fin 1024) :
    (outsAt0 m c t.val t.isLt).1 (ix2 p q)
      = entry (arrA m c) (arrB m c) (rowA (t.val / 8) (blockRow_lt t.val t.isLt) p) (rowB (t.val % 8) (blockCol_lt t.val) q) := by
  obtain ⟨-, -, -, -, -, -, o1, o2⟩ := grid_facts t
  by_cases h0 : t.val % 8 = 0
  · rw [outsAt0_A m c t h0]
    dsimp only
    rw [out_fresh c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)]
    exact entry_block (arrA m c) (arrB m c) (t.val / 8) (t.val % 8) (blockRow_lt t.val t.isLt) (blockCol_lt t.val)
      (bRows (F := Ideal) (grid0.coords t) (iblk m c 1 t)) (colRows (F := Ideal) (grid0.coords t) (k0_pay2 (F := Ideal) (iblk m c 1 t)))
      (iblk m c 0 t) (k0_pay1 (F := Ideal) (iblk m c 0 t))
      (fun q k => (bRows_apply (grid0.coords t) (t.val % 8) (blockCol_lt t.val) o1 (iblk m c 1 t) q k).trans (blkB m c t _ k))
      (fun q => (colRows_apply (grid0.coords t) (t.val % 8) (blockCol_lt t.val) o2 (k0_pay2 (F := Ideal) (iblk m c 1 t)) q 0).trans
        (colB_all (arrB m c) (iblk m c 1 t) (fun q k => blkB m c t q k) _ 0))
      (fun p k => blkA m c t p k)
      (fun p => colA_block (arrA m c) (t.val / 8) (blockRow_lt t.val t.isLt) (iblk m c 0 t) (fun p k => blkA m c t p k) p 0)
      p q
  · have ih := cols_ok m c (t.val - 1) (Nat.lt_of_le_of_lt (Nat.sub_le _ _) t.isLt)
    rw [outsAt0_B m c t h0]
    dsimp only
    rw [out_kept c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (iblk m c 0 t) (iblk m c 1 t)
      (outsAt0 m c (t.val - 1) (Nat.lt_of_le_of_lt (Nat.sub_le _ _) t.isLt)).2.1
      (outsAt0 m c (t.val - 1) (Nat.lt_of_le_of_lt (Nat.sub_le _ _) t.isLt)).2.2]
    exact entry_block (arrA m c) (arrB m c) (t.val / 8) (t.val % 8) (blockRow_lt t.val t.isLt) (blockCol_lt t.val)
      (bRows (F := Ideal) (grid0.coords t) (iblk m c 1 t))
      (colRows (F := Ideal) (grid0.coords t) (outsAt0 m c (t.val - 1) (Nat.lt_of_le_of_lt (Nat.sub_le _ _) t.isLt)).2.2)
      (iblk m c 0 t) (outsAt0 m c (t.val - 1) (Nat.lt_of_le_of_lt (Nat.sub_le _ _) t.isLt)).2.1
      (fun q k => (bRows_apply (grid0.coords t) (t.val % 8) (blockCol_lt t.val) o1 (iblk m c 1 t) q k).trans (blkB m c t _ k))
      (fun q => (colRows_apply (grid0.coords t) (t.val % 8) (blockCol_lt t.val) o2
        (outsAt0 m c (t.val - 1) (Nat.lt_of_le_of_lt (Nat.sub_le _ _) t.isLt)).2.2 q 0).trans (ih.2 _))
      (fun p k => blkA m c t p k)
      (fun p => (ih.1 p).trans (congrArg (sqLen (arrA m c)) (Fin.ext (by
        show 2048 * ((t.val - 1) / 8) + p.val = 2048 * (t.val / 8) + p.val
        omega))))
      p q

end Cert.KernelIdeal.Points

end
-- ==== Proof.Whole.lean ====
/-
  From the blocks to the whole matrix.

  Point `t` writes back one 2048 × 1024 block, placed at rows `2048·(t/8) …` and columns `1024·(t%8) …` of the
  8192 × 8192 result; what it writes is that block of the specification's matrix of the two argument arrays. The 32
  blocks cover the result (entry `(r, s)` lies in the block of point `8·(r / 2048) + s / 1024`), so after the run the
  result array IS the specification's matrix, and the arguments are unchanged.
-/
import proofs.«161270_j65481071410173_2_alg».proof.Proof.Gen.KernelIdeal.Value
import proofs.«161270_j65481071410173_2_alg».proof.Proof.Points

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Gram
open Cert.KernelIdeal.Block Cert.KernelIdeal.Points

variable (m : (ℓ : Loc nD τ sig) → Buf (Elt Ideal) ℓ) (ρ : Dev nD → PrngReg)

/-- Where entry `(p, q)` of point `t`'s block sits in the result. -/
theorem place (t : Fin cfg0.N) (p : Fin 2048) (q : Fin 1024) :
    ((cfg0.win 2).blk t).view.emb (ix2 p q)
      = ix2 (rowA (t.val / 8) (blockRow_lt t.val t.isLt) p) (rowB (t.val % 8) (blockCol_lt t.val) q) := by
  obtain ⟨-, -, -, -, e4, e5, -⟩ := grid_facts t
  funext a
  apply Fin.ext
  match a with
  | ⟨0, _⟩ =>
    show win0_2.index t (0 : Fin 2) * 2048 + 1 * p.val = 2048 * (t.val / 8) + p.val
    rw [e4]; omega
  | ⟨1, _⟩ =>
    show win0_2.index t (1 : Fin 2) * 1024 + 1 * q.val = 1024 * (t.val % 8) + q.val
    rw [e5]; omega

/-- What point `t` writes back is its block of the specification's matrix. -/
theorem flushed_eq (c : Dev nD) (t : Fin cfg0.N) :
    (dats m 0 c).flushed 2 t = ((cfg0.win 2).blk t).view.read (Elt Ideal) (gram (arrA m c) (arrB m c)) := by
  have key : ∀ y : S2048x1024.Idx,
      (outsAt0 m c t.val t.isLt).1 y = gram (arrA m c) (arrB m c) (((cfg0.win 2).blk t).view.emb y) := by
    intro y
    obtain ⟨p, q, rfl⟩ : ∃ (p : Fin 2048) (q : Fin 1024), y = ix2 p q := ⟨y 0, y 1, eq_ix2 y⟩
    rw [out_ok m c t p q, place t p q]
    rfl
  rw [Value.flushed2]
  exact funext key

/-- An entry of the result lies in point `t`'s block iff each coordinate lies in the block's range. -/
theorem mem_blk (t : Fin cfg0.N) (i : S8192x8192.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- Every entry of the result is in some point's block. -/
theorem cover (i : S8192x8192.Idx) :
    ∃ t : Fin cfg0.N, (cfg0.win 2).flush t = true ∧ i ∈ ((cfg0.win 2).blk t).view.set := by
  have h0 : (i 0).val < 8192 := (i 0).isLt
  have h1 : (i 1).val < 8192 := (i 1).isLt
  have hN : cfg0.N = 32 := N_0
  have ht : 8 * ((i 0).val / 2048) + (i 1).val / 1024 < cfg0.N := by omega
  obtain ⟨-, -, -, -, e4, e5, -⟩ := grid_facts ⟨8 * ((i 0).val / 2048) + (i 1).val / 1024, ht⟩
  refine ⟨⟨8 * ((i 0).val / 2048) + (i 1).val / 1024, ht⟩, flush0_2 _, ?_⟩
  rw [mem_blk]
  intro a
  match a with
  | ⟨0, _⟩ =>
    show win0_2.index ⟨8 * ((i 0).val / 2048) + (i 1).val / 1024, ht⟩ (0 : Fin 2) * 2048 ≤ (i 0).val
      ∧ (i 0).val < win0_2.index ⟨8 * ((i 0).val / 2048) + (i 1).val / 1024, ht⟩ (0 : Fin 2) * 2048 + 2048
    rw [e4]
    show (8 * ((i 0).val / 2048) + (i 1).val / 1024) / 8 * 2048 ≤ (i 0).val
      ∧ (i 0).val < (8 * ((i 0).val / 2048) + (i 1).val / 1024) / 8 * 2048 + 2048
    omega
  | ⟨1, _⟩ =>
    show win0_2.index ⟨8 * ((i 0).val / 2048) + (i 1).val / 1024, ht⟩ (1 : Fin 2) * 1024 ≤ (i 1).val
      ∧ (i 1).val < win0_2.index ⟨8 * ((i 0).val / 2048) + (i 1).val / 1024, ht⟩ (1 : Fin 2) * 1024 + 1024
    rw [e5]
    show (8 * ((i 0).val / 2048) + (i 1).val / 1024) % 8 * 1024 ≤ (i 1).val
      ∧ (i 1).val < (8 * ((i 0).val / 2048) + (i 1).val / 1024) % 8 * 1024 + 1024
    omega

/-- After the run the result array is the specification's matrix of the argument arrays. -/
theorem final (c : Dev nD) : (dats m 0 c).arrAt 2 cfg0.N = gram (arrA m c) (arrB m c) :=
  (dats m 0 c).arrAt_eq_of_cover 2 (gram (arrA m c) (arrB m c)) (fun t _ => flushed_eq m c t) cover

/-- The run, read: every weakly fair execution ends with the result at the specification's matrix, the arguments kept. -/
theorem run : θ_run defs (onTc (τ := τ) (main (F := Ideal))) ⟨m, fun _ => 0, ρ⟩ fun r => ∀ c : Dev nD,
      r.2.mem ((c : Thread nD τ).loc main_v0)
        = gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/-
  The pairwise Gaussian-kernel matrix: `K(p, q) = exp (−‖a_p − b_q‖² / 256)` for 8192 + 8192 row vectors of dimension
  256, the squared distance expanded as `‖a_p‖² + ‖b_q‖² − 2·⟨a_p, b_q⟩` and clamped at zero.

  The kernel walks a 4 × 8 grid of 2048 × 1024 output blocks. It keeps the squared lengths of the current 2048 rows of
  `a` and of all rows of `b` in two columns that it recomputes whenever a new block row starts, forms the inner products
  of the block by one matrix product (after a change of float format, which is the identity on extended reals), and
  stores the exponential. The reference computes the same three ingredients for the whole arrays at once. Over the
  extended reals both are the matrix `Cert.Gram.gram` of the two argument arrays, entry by entry: a row sum is the
  same sum however the rows are tiled, the matrix product into zeros and the host's contraction are the same sum over
  the 256 coordinates, and the literals (`2`, `0`, `−2⁻⁸`) are the same words on both sides. No finiteness is needed.

  Spec: the matrix.  RefSpec: the reference is it.  Pieces, Payload, Block: one run of the body.  Points: the two
  carried columns and the output block after every grid point (induction on the point).  Whole: the blocks tile the
  result.  The three frames are the programs' runs with the results dropped; the idealization rewrote nothing.
-/
import proofs.«161270_j65481071410173_2_alg».proof.Defs
import proofs.«161270_j65481071410173_2_alg».proof.Proof.Gen.Kernel
import proofs.«161270_j65481071410173_2_alg».proof.Proof.Gen.Kernel.Skeleton
import proofs.«161270_j65481071410173_2_alg».proof.Proof.Gen.Kernel.Launch
import proofs.«161270_j65481071410173_2_alg».proof.Proof.Gen.Kernel.Points
import proofs.«161270_j65481071410173_2_alg».proof.Proof.Gen.Kernel.Frame
import proofs.«161270_j65481071410173_2_alg».proof.Proof.Gen.KernelIdeal
import proofs.«161270_j65481071410173_2_alg».proof.Proof.Gen.KernelIdeal.Skeleton
import proofs.«161270_j65481071410173_2_alg».proof.Proof.Gen.KernelIdeal.Launch
import proofs.«161270_j65481071410173_2_alg».proof.Proof.Gen.KernelIdeal.Points
import proofs.«161270_j65481071410173_2_alg».proof.Proof.Gen.KernelIdeal.Frame
import proofs.«161270_j65481071410173_2_alg».proof.Proof.Gen.ReferenceIdeal
import proofs.«161270_j65481071410173_2_alg».proof.Proof.Gen.Pre_finite_inputs
import proofs.«161270_j65481071410173_2_alg».proof.Proof.Gen.KernelIdeal.Value
import proofs.«161270_j65481071410173_2_alg».proof.Proof.Gen.ReferenceIdeal.Run
import proofs.«161270_j65481071410173_2_alg».proof.Proof.Gen.ReferenceIdeal.Read
import proofs.«161270_j65481071410173_2_alg».proof.Proof.RefSpec
import proofs.«161270_j65481071410173_2_alg».proof.Proof.Whole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specification's matrix of the (agreeing) argument arrays. -/
theorem algebraic : Cert.algebraic_KernelIdeal_ReferenceIdeal := by
  intro m ρ m' ρ' _ hagree
  refine ⟨fun c => Cert.Gram.gram (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
